-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel

variable [Facts]

def fn {F : FTy → Type} [FloatOps F] (main_arg0 : FVec F S524288x128 .f32) (main_arg1 : FVec F S524288x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  main_v8
-- ==== Kernel.lean ====
abbrev S524288x128 : Shape := ⟨2, ![524288, 128]⟩
abbrev S8192x128 : Shape := ⟨2, ![8192, 128]⟩
abbrev S8192 : Shape := ⟨1, ![8192]⟩
abbrev S8192x1 : Shape := ⟨2, ![8192, 1]⟩

abbrev nBuf : Space → Nat
  | .hbm => 3
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  broadcasts_S8192x1_S8192x128 : S8192x1.Broadcasts S8192x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 1 2

variable [Facts]
-- ==== ReferenceIdeal.lean ====
abbrev S524288x128 : Shape := ⟨2, ![524288, 128]⟩
abbrev S_ : Shape := ⟨0, ![]⟩
abbrev S524288 : Shape := ⟨1, ![524288]⟩
abbrev S524288x1 : Shape := ⟨2, ![524288, 1]⟩

abbrev nBuf : Space → Nat
  | .hbm => 19
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S_, .f32⟩
  | .hbm, ⟨4, _⟩ => ⟨S524288, .f32⟩
  | .hbm, ⟨5, _⟩ => ⟨S524288, .f32⟩
  | .hbm, ⟨6, _⟩ => ⟨S_, .f32⟩
  | .hbm, ⟨7, _⟩ => ⟨S524288, .f32⟩
  | .hbm, ⟨8, _⟩ => ⟨S524288, .f32⟩
  | .hbm, ⟨9, _⟩ => ⟨S_, .f32⟩
  | .hbm, ⟨10, _⟩ => ⟨S524288, .f32⟩
  | .hbm, ⟨11, _⟩ => ⟨S524288, .f32⟩
  | .hbm, ⟨12, _⟩ => ⟨S_, .f32⟩
  | .hbm, ⟨13, _⟩ => ⟨S524288, .f32⟩
  | .hbm, ⟨14, _⟩ => ⟨S524288, .f32⟩
  | .hbm, ⟨15, _⟩ => ⟨S524288x1, .f32⟩
  | .hbm, ⟨16, _⟩ => ⟨S524288x128, .f32⟩
  | .hbm, ⟨17, _⟩ => ⟨S524288x128, .f32⟩
  | .hbm, ⟨18, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  reducesTo_S524288x128_S524288_d1 : S524288x128.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)

variable [Facts₀]

class Facts : Prop extends Facts₀ where

variable [Facts]
-- ==== Proof.LibClipLaw.lean ====
/-
  Clipping a row to the unit ball, on the extended reals: general lemmas (no program, no shape).

  For a row with sum of squares `s`, one program scales the row by `min 1 (1 · s^(-1/2))`, the other by
  `1 / max (√s / 1) 1`. For every extended real `s ≥ 0` these are one number:
    * `s = 0`:  `s^(-1/2) = +∞`, so the minimum is `1`; and `√0 = 0`, `max 0 1 = 1`, `1 / 1 = 1`;
    * `0 < s < +∞`:  both are `1 / max (√s) 1`, since `min 1 (1/a) = 1 / max a 1` for a real `a > 0`;
    * `s = +∞`:  `s^(-1/2) = 0`, so the minimum is `0`; and `√s = +∞`, `1 / +∞ = 0`.
  Below zero the two sides differ (their conventional values there are not the same), so the hypothesis `0 ≤ s` is
  used; it always holds of a sum of squares, whatever the entries: `x · x ≥ 0` for every extended real `x`, the
  infinities included (`(-∞)·(-∞) = +∞`).
-/
import Idealize.ShloMosaic.PureOps.Ideal
import Mathlib.Algebra.Order.BigOperators.Group.Finset

noncomputable section

open scoped BigOperators

namespace Cert.Clip

open Idealize.ShloMosaic

/-- The single-precision pattern of `1.0` denotes the extended real `1`. -/
theorem ofBits_one : Ideal.ofBits .f32 0x3F800000#32 = 1 := by
  simp [Ideal.ofBits, Ideal.ieee, -EReal.coe_mul]; norm_num

/-- The factor a row of squared length `s` is scaled by: `min 1 (1 · s^(-1/2))`. -/
def scale (s : EReal) : EReal := min 1 (1 * Ideal.rsqrt s)

/-- A square is never negative on the extended reals. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact_mod_cast _root_.mul_self_nonneg r

/-- So a sum of squares is never negative. -/
theorem sum_mul_self_nonneg {ι : Type} [Fintype ι] (f : ι → EReal) : 0 ≤ ∑ k, f k * f k :=
  Finset.sum_nonneg fun k _ => mul_self_nonneg (f k)

/-- Dividing by one changes nothing, at the infinities too. -/
theorem div_one (x : EReal) : Ideal.div x 1 = x := by
  rw [Ideal.div, if_neg one_ne_zero, ← EReal.coe_one, ← EReal.coe_inv, inv_one, EReal.coe_one, mul_one]

/-- One over a nonzero real is the real reciprocal. -/
theorem one_div_coe {y : ℝ} (hy : y ≠ 0) : Ideal.div 1 (y : EReal) = ((y⁻¹ : ℝ) : EReal) := by
  rw [Ideal.div, if_neg (by exact_mod_cast hy), one_mul, ← EReal.coe_inv]

/-- The coercion of the reals into the extended reals keeps maxima and minima. -/
theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-- For a positive real `a`: `min 1 (1/a) = 1 / max a 1`. -/
theorem min_one_inv {a : ℝ} (ha : 0 < a) : min 1 a⁻¹ = (max a 1)⁻¹ := by
  rcases le_total a 1 with h | h
  · rw [max_eq_right h, inv_one, min_eq_left]
    exact (one_le_inv₀ ha).mpr h
  · rw [max_eq_left h, min_eq_right]
    exact inv_le_one_of_one_le₀ h

/-- THE LAW: on a nonnegative extended real the two spellings of the clipping factor agree. -/
theorem scale_eq (s : EReal) (hs : 0 ≤ s) :
    scale s = Ideal.div 1 (max (Ideal.div (Ideal.sqrt s) 1) 1) := by
  unfold scale
  rw [div_one, one_mul]
  induction s using EReal.rec with
  | bot => exact absurd hs (not_le.mpr EReal.bot_lt_zero)
  | top =>
    rw [Ideal.rsqrt_top, Ideal.sqrt_top, max_eq_left le_top, Ideal.div, if_neg EReal.top_ne_zero, EReal.inv_top,
      mul_zero, min_eq_right zero_le_one]
  | coe r =>
    have hr : 0 ≤ r := EReal.coe_nonneg.mp hs
    rw [Ideal.rsqrt_coe, Ideal.sqrt_coe, if_neg (not_lt.mpr hr), if_neg (not_lt.mpr hr)]
    rcases hr.eq_or_lt with h0 | hpos
    · subst h0
      rw [if_pos rfl, Real.sqrt_zero, min_eq_left le_top, EReal.coe_zero, max_eq_right zero_le_one, div_one]
    · have hq : 0 < Real.sqrt r := Real.sqrt_pos.mpr hpos
      have e1 : max ((Real.sqrt r : ℝ) : EReal) 1 = ((max (Real.sqrt r) 1 : ℝ) : EReal) := by
        rw [coe_max, EReal.coe_one]
      have e2 : min (1 : EReal) (((Real.sqrt r)⁻¹ : ℝ) : EReal) = ((min 1 (Real.sqrt r)⁻¹ : ℝ) : EReal) := by
        rw [coe_min, EReal.coe_one]
      rw [if_neg hpos.ne', e1, e2, one_div_coe (lt_of_lt_of_le hq (le_max_left _ _)).ne', min_one_inv hq]

end Cert.Clip

end
-- ==== Proof.ClipSpec.lean ====
/-
  The common result of the two programs, as one function of the two argument arrays: every entry of `x` scaled by the
  clipping factor of its row (`Clip.scale` of the row's sum of squares), plus the noise entry.
-/
import proofs.«140950_j16990890623150_2_alg».proof.Proof.LibClipLaw

noncomputable section

open scoped BigOperators

namespace Cert.Clip

open Idealize.ShloMosaic

/-! ## The specification -/

/-- The arrays' shape: 524288 rows of 128 entries. -/
abbrev SArr : Shape := ⟨2, ![524288, 128]⟩

/-- Entry `k` of the row that the index `i` lies in. -/
abbrev inRow (i : SArr.Idx) (k : Fin 128) : SArr.Idx := fun a => match a with
  | ⟨0, _⟩ => ⟨(i 0).val, (i 0).isLt⟩
  | ⟨1, _⟩ => ⟨k.val, k.isLt⟩

/-- THE RESULT both programs compute, index by index: the entry `x i` scaled by its row's clipping factor — `scale` of
    the sum of the squares of the 128 entries of the row of `i` —, plus the noise entry. -/
def G (x noise : SArr.Idx → EReal) : SArr.Idx → EReal :=
  fun i => x i * scale (∑ k : Fin 128, x (inRow i k) * x (inRow i k)) + noise i

end Cert.Clip

end
-- ==== Proof.KernelBlock.lean ====
/-
  One block of the kernel's result, entry by entry.

  At every grid point the body loads a block `P0` of 8192 rows of `x` and the matching block `P1` of the noise, and stores
  `P0 · bcast (min 1 (1 · (Σ_lane P0²)^(-1/2))) + P1`. Read at the block index `y`, this is
  `P0 y · Clip.scale (Σₖ P0(r,k)²) + P1 y` with `r` the row of `y` inside the block: the lane reduction at row `r` is the sum
  over the 128 entries of that row, and the shape cast and the broadcast only carry the per-row factor across the row.
-/
import proofs.«140950_j16990890623150_2_alg».proof.Proof.Gen.KernelIdeal.Value
import proofs.«140950_j16990890623150_2_alg».proof.Proof.LibClipLaw
import Idealize.ShloMosaic.PureOps.Ideal.Laws

noncomputable section

open scoped BigOperators

namespace Cert.KernelIdeal.Block

open Cert.KernelIdeal Cert.KernelIdeal.Gen Idealize.ShloMosaic

/-- Entry `k` of the row of the block that the block index `y` lies in. -/
abbrev inRow (y : S8192x128.Idx) (k : Fin 128) : S8192x128.Idx := fun a => match a with
  | ⟨0, _⟩ => ⟨(y 0).val, (y 0).isLt⟩
  | ⟨1, _⟩ => ⟨k.val, k.isLt⟩

/-- The lane reduction of the squares, at the row of `y`, is the sum of the squares of that row's 128 entries. -/
theorem lane_sum (P0 : Vec Ideal S8192x128 .f32) (y : S8192x128.Idx) :
    (multiReduction (F := Ideal) .add [1] S8192 (mulf P0 P0) 0x00000000#32 reduces_S8192x128_S8192 (.inl rfl) rfl) (Value.ix2_1 y)
      = ∑ k : Fin 128, P0 (inRow y k) * P0 (inRow y k) := by
  refine (Ideal.multiReduction_add_single (mulf P0 P0) 0x00000000#32 reduces_S8192x128_S8192 (.inl rfl) rfl (Value.ix2_1 y)).trans ?_
  refine Finset.sum_congr rfl fun k _ => ?_
  have e : reduces_S8192x128_S8192.lift (Value.ix2_1 y) k = inRow y k :=
    funext fun a => Fin.ext (by match a with | ⟨0, _⟩ => rfl | ⟨1, _⟩ => rfl)
  show P0 _ * P0 _ = _
  rw [e]

/-- The block the body leaves, at the block index `y`: the entry of the `x`-block scaled by its row's clipping factor,
    plus the entry of the noise block. -/
theorem block_apply (P0 P1 : Vec Ideal S8192x128 .f32) (y : S8192x128.Idx) :
    Value.E2 (F := Ideal) P0 P1 y = P0 y * Cert.Clip.scale (∑ k : Fin 128, P0 (inRow y k) * P0 (inRow y k)) + P1 y := by
  have h0 : Value.ix2_0 y = y := funext fun a => Fin.ext (by match a with | ⟨0, _⟩ => rfl | ⟨1, _⟩ => rfl)
  have h2 : Value.ix2_2 y = y := funext fun a => Fin.ext (by match a with | ⟨0, _⟩ => rfl | ⟨1, _⟩ => rfl)
  unfold Value.E2
  simp only [Ideal.addf_def, Ideal.mulf_def, Ideal.minimumf_def, Ideal.rsqrt_def, Ideal.ofBits_def, Cert.Clip.ofBits_one,
    h0, h2]
  rw [lane_sum P0 y]
  rfl

end Cert.KernelIdeal.Block

end
-- ==== Proof.KernelArray.lean ====
/-
  From blocks to the array: after the kernel's run the result array is `Clip.G` of the two argument arrays.

  The grid has 64 points; point `t` works on rows `8192·t … 8192·t + 8191`, all 128 columns, of `x`, of the noise and of the
  result alike (the three index maps are `t ↦ (t, 0)`). A row of the array lies inside ONE block, so the row sum the body
  takes over its block's row is the row sum of the array: what point `t` writes back is block `t` of `Clip.G`. The 64
  blocks cover the array (row `r` is in block `r / 8192`), so the array ends as `Clip.G` everywhere.
-/
import proofs.«140950_j16990890623150_2_alg».proof.Proof.Gen.KernelIdeal.Value
import proofs.«140950_j16990890623150_2_alg».proof.Proof.ClipSpec
import proofs.«140950_j16990890623150_2_alg».proof.Proof.KernelBlock
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three index maps, decided over the 64 points: the inputs' blocks sit where the output's block sits, in column
    block 0, and the row block is below 64. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 63 :=
  (by decide +kernel : ∀ t : Fin grid0.N, _)

/-- Every row block is some point's. -/
theorem idx_onto : ∀ q : Fin 64, ∃ t : Fin cfg0.N, win0_2.index t = ![q.val, 0] :=
  (by decide +kernel : ∀ q : Fin 64, ∃ t : Fin grid0.N, win0_2.index t = ![q.val, 0])

/-- An entry of the `x`-block at point `t` is the entry of `x` at the same column, `8192·(row block)` rows further down. -/
theorem xblock_apply (c : Dev nD) (t : Fin cfg0.N) (y : S8192x128.Idx) (i : S524288x128.Idx)
    (h0 : (i 0).val = win0_2.index t (0 : Fin 2) * 8192 + (y 0).val) (h1 : (i 1).val = (y 1).val) :
    (iblk m c 0 t : Vec Ideal S8192x128 .f32) y = V m c main_arg0 i := by
  obtain ⟨e0, e1, e2, e3, e4, e5⟩ := idx_facts t
  unfold iblk
  rw [View.read_apply]
  show V m c main_arg0 _ = V m c main_arg0 i
  refine congrArg (V m c main_arg0) ?_
  funext a; apply Fin.ext
  match a with
  | ⟨0, _⟩ => show win0_0.index t (0 : Fin 2) * 8192 + 1 * (y 0).val = (i 0).val; omega
  | ⟨1, _⟩ => show win0_0.index t (1 : Fin 2) * 128 + 1 * (y 1).val = (i 1).val; omega

/-- The same for the noise block. -/
theorem nblock_apply (c : Dev nD) (t : Fin cfg0.N) (y : S8192x128.Idx) (i : S524288x128.Idx)
    (h0 : (i 0).val = win0_2.index t (0 : Fin 2) * 8192 + (y 0).val) (h1 : (i 1).val = (y 1).val) :
    (iblk m c 1 t : Vec Ideal S8192x128 .f32) y = V m c main_arg1 i := by
  obtain ⟨e0, e1, e2, e3, e4, e5⟩ := idx_facts t
  unfold iblk
  rw [View.read_apply]
  show V m c main_arg1 _ = V m c main_arg1 i
  refine congrArg (V m c main_arg1) ?_
  funext a; apply Fin.ext
  match a with
  | ⟨0, _⟩ => show win0_1.index t (0 : Fin 2) * 8192 + 1 * (y 0).val = (i 0).val; omega
  | ⟨1, _⟩ => show win0_1.index t (1 : Fin 2) * 128 + 1 * (y 1).val = (i 1).val; omega

/-- A block inside the array, stated over plain functions: if the blocks `B0`, `B1` are the arrays `A0`, `A1` read
    `8192·q` rows further down, same column, then the block's entry at `j` — the `B0` entry scaled by its block row's clipping
    factor, plus the `B1` entry — is `Clip.G A0 A1` at the array index `e` over `j`: the block row of `j` is the WHOLE row
    of `e` (all 128 columns), so the two row sums have the same terms. -/
theorem block_in_array (q : Nat) (B0 B1 : Vec Ideal S8192x128 .f32) (A0 A1 : S524288x128.Idx → EReal)
    (hB0 : ∀ (y : S8192x128.Idx) (i : S524288x128.Idx), (i 0).val = q * 8192 + (y 0).val → (i 1).val = (y 1).val → B0 y = A0 i)
    (hB1 : ∀ (y : S8192x128.Idx) (i : S524288x128.Idx), (i 0).val = q * 8192 + (y 0).val → (i 1).val = (y 1).val → B1 y = A1 i)
    (j : S8192x128.Idx) (e : S524288x128.Idx) (p0 : (e 0).val = q * 8192 + (j 0).val) (p1 : (e 1).val = (j 1).val) :
    B0 j * Cert.Clip.scale (∑ k : Fin 128, B0 (Block.inRow j k) * B0 (Block.inRow j k)) + B1 j = Cert.Clip.G A0 A1 e := by
  unfold Cert.Clip.G
  have hsum : ∑ k : Fin 128, B0 (Block.inRow j k) * B0 (Block.inRow j k)
      = ∑ k : Fin 128, A0 (Cert.Clip.inRow e k) * A0 (Cert.Clip.inRow e k) :=
    Finset.sum_congr rfl fun k _ => by rw [hB0 (Block.inRow j k) (Cert.Clip.inRow e k) p0 rfl]
  rw [hsum, hB0 j e p0 p1, hB1 j e p0 p1]

/-- WHAT POINT `t` WRITES BACK is block `t` of `Clip.G` of the argument arrays as the region finds them. -/
theorem flushed_eq (c : Dev nD) (t : Fin cfg0.N) :
    (dats m 0 c).flushed 2 t
      = ((cfg0.win 2).blk t).view.read (Elt Ideal) (Cert.Clip.G (V m c main_arg0) (V m c main_arg1)) := by
  show (cfg0.win 2).cut (grid0.coords t) ((dats m 0 c).after 2 t) = _
  rw [after0_2]
  unfold out0_2
  simp only [View.ld_unit_zero (S := S8192x128) hz]
  obtain ⟨e0, e1, e2, e3, e4, e5⟩ := idx_facts t
  funext j
  refine (Value.canon2_eq (F := Ideal) (iblk m c 0 t) (iblk m c 1 t) j).trans ?_
  refine (Block.block_apply (iblk m c 0 t) (iblk m c 1 t) j).trans ?_
  show _ = Cert.Clip.G (V m c main_arg0) (V m c main_arg1) (((cfg0.win 2).blk t).view.emb j)
  -- where the block index `j` sits in the array
  have p0 : ((((cfg0.win 2).blk t).view.emb j) 0).val = win0_2.index t (0 : Fin 2) * 8192 + (j 0).val := by
    show win0_2.index t (0 : Fin 2) * 8192 + 1 * (j 0).val = _; omega
  have p1 : ((((cfg0.win 2).blk t).view.emb j) 1).val = (j 1).val := by
    show win0_2.index t (1 : Fin 2) * 128 + 1 * (j 1).val = _; omega
  exact block_in_array (win0_2.index t (0 : Fin 2)) (iblk m c 0 t) (iblk m c 1 t) (V m c main_arg0) (V m c main_arg1)
    (fun y i h0 h1 => xblock_apply m c t y i h0 h1) (fun y i h0 h1 => nblock_apply m c t y i h0 h1)
    j (((cfg0.win 2).blk t).view.emb j) p0 p1

/-- An index of the array is in point `t`'s block iff each coordinate is in the block's range on its axis. -/
theorem mem_blk (t : Fin cfg0.N) (i : S524288x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v0).slice (win0_2.rect t)).set ↔ _
  rw [View.set_slice_whole, Rect.mem_set_unit]
  exact Iff.rfl

/-- The blocks cover the array: row `r` lies in row block `r / 8192`. -/
theorem cover (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-- THE ARRAY after the run is `Clip.G` of the argument arrays as launched. -/
theorem final (c : Dev nD) : (dats m 0 c).arrAt 2 cfg0.N
    = Cert.Clip.G (m ((c : Thread nD τ).loc main_arg0)) (m ((c : Thread nD τ).loc main_arg1)) := by
  have h := (dats m 0 c).arrAt_eq_of_cover 2 (Cert.Clip.G (V m c main_arg0) (V m c main_arg1))
    (fun t _ => flushed_eq m c t) cover
  rw [V_main_arg0, V_main_arg1] at h
  exact h

/-- The kernel's run, read: the result array at `Clip.G` of the arguments, the arguments unchanged. -/
theorem run : θ_run defs (onTc (τ := τ) (main (F := Ideal))) ⟨m, fun _ => 0, ρ⟩ fun r => ∀ c : Dev nD,
      r.2.mem ((c : Thread nD τ).loc main_v0)
        = Cert.Clip.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result is the specification `Clip.G`.

  Read at an index `i`, the reference's last stage is `x i · (1 / max (√(0 + Σₖ x(r,k)²) / 1) 1) + noise i`, with `r` the row
  of `i`: the two broadcasts only carry the per-row factor to every entry of the row. The sum of squares is never
  negative, so the factor is `Clip.scale` of it (`Clip.scale_eq`).
-/
import proofs.«140950_j16990890623150_2_alg».proof.Proof.Gen.ReferenceIdeal.Read
import proofs.«140950_j16990890623150_2_alg».proof.Proof.ClipSpec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic

/-- The reference's result stage, as a function of the two argument arrays, is `Clip.G` of them. -/
theorem result_eq (x0 x1 : (⟨S524288x128, .f32⟩ : BufTy).Contents (Elt Ideal)) :
    val_main_v10 (F := Ideal) x0 x1 = Cert.Clip.G x0 x1 := by
  funext i
  -- the per-row sum is read at the row of `i`: the broadcasts' index maps forget the column and restore the row
  have hrow : ∀ k : Fin 128, idx_main_call0_v1 (idx_main_v7 (idx_main_v8 i)) k = Cert.Clip.inRow i k := fun k =>
    funext fun a => Fin.ext (by match a with | ⟨0, _⟩ => rfl | ⟨1, _⟩ => rfl)
  rw [val_main_v10_apply, val_main_v9_apply, val_main_v8_apply, val_main_v7_apply, val_main_v6_apply, val_main_v5_apply,
    val_main_cst_1_apply, val_main_v4_apply, val_main_v3_apply, val_main_cst_0_apply, val_main_v2_apply, val_main_v1_apply,
    val_main_cst_apply, val_main_v0_apply, val_main_call0_v1_apply, val_main_call0_cst_apply]
  simp only [val_main_call0_v0_apply, hrow, Ideal.addf_def, Ideal.mulf_def, Ideal.hostDivf_def, Ideal.maximumf_def,
    Ideal.hostUnary_sqrt_def, Ideal.ofBits_def, Cert.Clip.ofBits_one, Ideal.ofBits_zero_f32, zero_add]
  unfold Cert.Clip.G
  rw [Cert.Clip.scale_eq _ (Cert.Clip.sum_mul_self_nonneg _)]

end Cert.ReferenceIdeal.RefValue

end
-- ==== Proof.lean ====
/-
  Row-wise clipping to the unit ball plus noise, over f32[524288, 128]: a kernel against its reference, as extended reals.

  For the row `r` of `x` with sum of squares `s = Σₖ x(r,k)²`,
    * the kernel computes      `x(r,c) · min 1 (1 · s^(-1/2)) + noise(r,c)`,   64 grid points, 8192 whole rows each;
    * the reference computes   `x(r,c) · (1 / max (√(0 + s) / 1) 1) + noise(r,c)`   on the whole arrays.
  The two factors are one number for every extended real `s ≥ 0` (`Clip.scale_eq`: at `s = 0` both are `1`, because
  `0^(-1/2) = +∞` and `√0 = 0`; at `s = +∞` both are `0`; in between both are `1 / max (√s) 1`), and a sum of squares is
  never negative, whatever extended reals the entries are. So the equality holds at every input, and the claim's
  precondition (finite inputs) is never opened.

  The parts: the law is in Proof/LibClipLaw.lean; `Clip.G` is the common result as one function of the two arrays (Proof/ClipSpec.lean); the kernel's result
  array ends as `Clip.G` — one block entry by entry (Proof/KernelBlock.lean), then the 64 blocks together
  (Proof/KernelArray.lean); the reference's last stage is `Clip.G` (Proof/RefValue.lean). The kernel's idealization
  rewrote nothing, so that conjunct is `True`; the three frame conjuncts are the programs' runs with the result dropped.
-/
import proofs.«140950_j16990890623150_2_alg».proof.Defs
import proofs.«140950_j16990890623150_2_alg».proof.Proof.Gen.Kernel
import proofs.«140950_j16990890623150_2_alg».proof.Proof.Gen.Kernel.Skeleton
import proofs.«140950_j16990890623150_2_alg».proof.Proof.Gen.Kernel.Launch
import proofs.«140950_j16990890623150_2_alg».proof.Proof.Gen.Kernel.Points
import proofs.«140950_j16990890623150_2_alg».proof.Proof.Gen.Kernel.Frame
import proofs.«140950_j16990890623150_2_alg».proof.Proof.Gen.KernelIdeal
import proofs.«140950_j16990890623150_2_alg».proof.Proof.Gen.KernelIdeal.Skeleton
import proofs.«140950_j16990890623150_2_alg».proof.Proof.Gen.KernelIdeal.Launch
import proofs.«140950_j16990890623150_2_alg».proof.Proof.Gen.KernelIdeal.Points
import proofs.«140950_j16990890623150_2_alg».proof.Proof.Gen.KernelIdeal.Frame
import proofs.«140950_j16990890623150_2_alg».proof.Proof.Gen.ReferenceIdeal
import proofs.«140950_j16990890623150_2_alg».proof.Proof.Gen.KernelIdeal.Value
import proofs.«140950_j16990890623150_2_alg».proof.Proof.Gen.ReferenceIdeal.Run
import proofs.«140950_j16990890623150_2_alg».proof.Proof.Gen.ReferenceIdeal.Read
import proofs.«140950_j16990890623150_2_alg».proof.Proof.ClipSpec
import proofs.«140950_j16990890623150_2_alg».proof.Proof.KernelArray
import proofs.«140950_j16990890623150_2_alg».proof.Proof.RefValue
import proofs.«140950_j16990890623150_2_alg».proof.Proof.Gen.Pre_finite_inputs
import Idealize.ShloMosaic.Adequacy
import Idealize.ShloMosaic.Init

noncomputable section

namespace Cert.Proof

open Idealize.ShloMosaic Idealize.SL.Sem Cert.Kernel

/-- The word-level kernel runs to the end, nothing faulting, its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Read over the extended reals, from memories that agree on `x` and on the noise, the kernel's result array ends as
    `Clip.G` of the two arrays, and the reference's result is its last stage, which is `Clip.G` of them too. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
